-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x6144 : Shape := ⟨2, ![2048, 6144]⟩
abbrev S6144 : Shape := ⟨1, ![6144]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_

variable [Facts]

def fn {F : FTy → Type} [FloatOps F] (main_arg0 : FVec F S4x4096x2048 .f32) (main_arg1 : FVec F S2048x6144 .f32) (main_arg2 : FVec F S6144 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  main_v13
-- ==== Kernel.lean ====
abbrev S4x4096x2048 : Shape := ⟨3, ![4, 4096, 2048]⟩
abbrev S2048x6144 : Shape := ⟨2, ![2048, 6144]⟩
abbrev S6144 : Shape := ⟨1, ![6144]⟩
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S4x16x4096x128 : Shape := ⟨4, ![4, 16, 4096, 128]⟩
abbrev S1024x2048 : Shape := ⟨2, ![1024, 2048]⟩
abbrev S2048x512 : Shape := ⟨2, ![2048, 512]⟩
abbrev S1x512 : Shape := ⟨2, ![1, 512]⟩
abbrev S1x4x1024x128 : Shape := ⟨4, ![1, 4, 1024, 128]⟩
abbrev S1024x512 : Shape := ⟨2, ![1024, 512]⟩
abbrev S1024x4x128 : Shape := ⟨3, ![1024, 4, 128]⟩
abbrev S4x1024x128 : Shape := ⟨3, ![4, 1024, 128]⟩

abbrev nBuf : Space → Nat
  | .hbm => 17
  | .vmem => 24
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S6144, .f32⟩
  | .hbm, ⟨3, _⟩ => ⟨S16384x2048, .f32⟩
  | .hbm, ⟨4, _⟩ => ⟨S2048x6144, .bf16⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S4x16x4096x128, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S4x16x4096x128, .f32⟩
  | .hbm, ⟨13, _⟩ => ⟨S2048x2048, .bf16⟩
  | .hbm, ⟨14, _⟩ => ⟨S2048, .f32⟩
  | .hbm, ⟨15, _⟩ => ⟨S1x2048, .f32⟩
  | .hbm, ⟨16, _⟩ => ⟨S4x16x4096x128, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1x4x1024x128, .f32⟩
  | .local _ .vmem, ⟨7, _⟩ => ⟨S1x4x1024x128, .f32⟩
  | .local _ .vmem, ⟨8, _⟩ => ⟨S1024x2048, .f32⟩
  | .local _ .vmem, ⟨9, _⟩ => ⟨S1024x2048, .f32⟩
  | .local _ .vmem, ⟨10, _⟩ => ⟨S2048x512, .bf16⟩
  | .local _ .vmem, ⟨11, _⟩ => ⟨S2048x512, .bf16⟩
  | .local _ .vmem, ⟨12, _⟩ => ⟨S1x512, .f32⟩
  | .local _ .vmem, ⟨13, _⟩ => ⟨S1x512, .f32⟩
  | .local _ .vmem, ⟨14, _⟩ => ⟨S1x4x1024x128, .f32⟩
  | .local _ .vmem, ⟨15, _⟩ => ⟨S1x4x1024x128, .f32⟩
  | .local _ .vmem, ⟨16, _⟩ => ⟨S1024x2048, .f32⟩
  | .local _ .vmem, ⟨17, _⟩ => ⟨S1024x2048, .f32⟩
  | .local _ .vmem, ⟨18, _⟩ => ⟨S2048x512, .bf16⟩
  | .local _ .vmem, ⟨19, _⟩ => ⟨S2048x512, .bf16⟩
  | .local _ .vmem, ⟨20, _⟩ => ⟨S1x512, .f32⟩
  | .local _ .vmem, ⟨21, _⟩ => ⟨S1x512, .f32⟩
  | .local _ .vmem, ⟨22, _⟩ => ⟨S1x4x1024x128, .f32⟩
  | .local _ .vmem, ⟨23, _⟩ => ⟨S1x4x1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x4x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x4x1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x4096x2048_S16384x2048 : S4x4096x2048.ShapeCasts S16384x2048
  bitsLt_bf16_f32 : FTy.bits .bf16 < FTy.bits .f32
  slices_S2048x6144_S2048x2048_0_0 : S2048x6144.Slices ![0, 0] S2048x2048
  slices_S6144_S2048_0 : S6144.Slices ![0] S2048
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1024x4x128 : S1024x512.ShapeCasts S1024x4x128
  transposes_S1024x4x128_p1_0_2_S4x1024x128 : S1024x4x128.Transposes [1, 0, 2] S4x1024x128
  inb_S1x4x1024x128_S1x4x1024x128_0_0_0_0 : ∀ a, (![0, 0, 0, 0] : Fin 4 → Nat) a + S1x4x1024x128.size a ≤ S1x4x1024x128.size a
  h_S1x4x1024x128 : 0 < S1x4x1024x128.numel
  shapeCasts_S1x4x1024x128_S4x1024x128 : S1x4x1024x128.ShapeCasts S4x1024x128
  shapeCasts_S4x1024x128_S1x4x1024x128 : S4x1024x128.ShapeCasts S1x4x1024x128
  slices_S2048x6144_S2048x2048_0_2048 : S2048x6144.Slices ![0, 2048] S2048x2048
  slices_S6144_S2048_2048 : S6144.Slices ![2048] S2048
  slices_S2048x6144_S2048x2048_0_4096 : S2048x6144.Slices ![0, 4096] S2048x2048
  slices_S6144_S2048_4096 : S6144.Slices ![4096] S2048
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .bf16 = 32 ∨ (Rect.block (s := S2048x2048) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024x128.size a ≤ S4x16x4096x128.size a
  hwx0_3 : ∀ i : grid0.Coords, EltTy.bits .f32 = 32 ∨ (Rect.block (s := S4x16x4096x128) S1x4x1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x2048.size a
  hwx1_1 : ∀ i : grid1.Coords, EltTy.bits .bf16 = 32 ∨ (Rect.block (s := S2048x2048) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x1024x128.size a ≤ S4x16x4096x128.size a
  hwx1_3 : ∀ i : grid1.Coords, EltTy.bits .f32 = 32 ∨ (Rect.block (s := S4x16x4096x128) S1x4x1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x2048.size a
  hwx2_0 : ∀ i : grid2.Coords, EltTy.bits .f32 = 32 ∨ (Rect.block (s := S16384x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x2048.size a
  hwx2_1 : ∀ i : grid2.Coords, EltTy.bits .bf16 = 32 ∨ (Rect.block (s := S2048x2048) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x4x1024x128.size a ≤ S4x16x4096x128.size a
  hwx2_3 : ∀ i : grid2.Coords, EltTy.bits .f32 = 32 ∨ (Rect.block (s := S4x16x4096x128) S1x4x1024x128.size (cc2_transform_3 i) (hinb2_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x4x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x4x1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x2048 : Shape := ⟨3, ![4, 4096, 2048]⟩
abbrev S2048x6144 : Shape := ⟨2, ![2048, 6144]⟩
abbrev S6144 : Shape := ⟨1, ![6144]⟩
abbrev S4x4096x6144 : Shape := ⟨3, ![4, 4096, 6144]⟩
abbrev S1x1x6144 : Shape := ⟨3, ![1, 1, 6144]⟩
abbrev S4x4096x16x128 : Shape := ⟨4, ![4, 4096, 16, 128]⟩
abbrev S4x16x4096x128 : Shape := ⟨4, ![4, 16, 4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S6144, .f32⟩
  | .hbm, ⟨3, _⟩ => ⟨S4x4096x6144, .f32⟩
  | .hbm, ⟨4, _⟩ => ⟨S1x1x6144, .f32⟩
  | .hbm, ⟨5, _⟩ => ⟨S4x4096x6144, .f32⟩
  | .hbm, ⟨6, _⟩ => ⟨S4x4096x6144, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x16x128, .f32⟩
  | .hbm, ⟨11, _⟩ => ⟨S4x16x4096x128, .f32⟩
  | .hbm, ⟨12, _⟩ => ⟨S4x4096x16x128, .f32⟩
  | .hbm, ⟨13, _⟩ => ⟨S4x16x4096x128, .f32⟩
  | .hbm, ⟨14, _⟩ => ⟨S4x4096x16x128, .f32⟩
  | .hbm, ⟨15, _⟩ => ⟨S4x16x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S4x4096x6144_0_1_2 : S1x1x6144.BroadcastsInDim S4x4096x6144 (![0, 1, 2] : Fin 3 → Fin S4x4096x6144.rank)
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  shapeCasts_S4x4096x2048_S4x4096x16x128 : S4x4096x2048.ShapeCasts S4x4096x16x128
  transposes_S4x4096x16x128_S4x16x4096x128_0_2_1_3 : S4x4096x16x128.Transposes [0, 2, 1, 3] S4x16x4096x128
  dot_S4x4096x2048_S2048x6144_S4x4096x6144_2_0_01_1_n_n_wf : DotDims.WF S4x4096x2048 S2048x6144 S4x4096x6144 [2] [0] [0, 1] [1] [] []

variable [Facts₀]

def dot_S4x4096x2048_S2048x6144_S4x4096x6144_2_0_01_1_n_n : DotDims S4x4096x2048 S2048x6144 S4x4096x6144 where
  lhsContracting := [2]
  rhsContracting := [0]
  lhsNonContracting := [0, 1]
  rhsNonContracting := [1]
  lhsBatch := []
  rhsBatch := []
  wf := dot_S4x4096x2048_S2048x6144_S4x4096x6144_2_0_01_1_n_n_wf

class Facts : Prop extends Facts₀ where

variable [Facts]
-- ==== Proof.QkvRun.lean ====
/-
  The run, with the three results named.

  @main is six segments: a stretch of host operations and a region, three times. The generated frame module names
  the buffer contents at every segment boundary (`W0` at launch … `W6` at the return) and runs the segments through
  the launch theorem for programs of several regions; its conclusion keeps only the argument arrays. Here the same
  launch is read at the three result buffers as well: every weakly fair execution terminates, nothing faults, and
  each result buffer ends at `W6` of it — which the next module reads back to the region that filled it.
-/
import proofs.«117544_j51977694216468_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each result buffer ends at the last boundary's
    contents `W6` of it, and each argument as launched. -/
theorem run_at : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_v9) = W6 m ρ c (Proc.devRef .tc main_v9)
      ∧ r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)), h c _ (mem_uc main_v9 (by decide)), h c _ (mem_uc main_v13 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Results

end
-- ==== Proof.QkvBoundaries.lean ====
/-
  What each region is handed, and where each result comes from.

  Before region 0 the host flattens the hidden states (`main_v0`), narrows the fused weight to bf16 (`main_v1`: the
  identity on the extended reals, but still its own buffer), and cuts section 0's weights (`main_v2`) and bias row
  (`main_v4`). Before regions 1 and 2 it cuts sections 1 and 2 from the SAME `main_v1` and the same bias argument. No
  region writes `main_v0`, `main_v1` or an argument (an input window's array is never written back; the others are
  not the region's arrays), and no later host operation writes them either, so the later regions read them as the
  first stretch left them. Likewise a region's output array is touched by nothing after that region: the three
  results at the return are what their regions left (`arrAt 3 N` of each region's proof data).
-/
import proofs.«117544_j51977694216468_2_alg».proof.Proof.Gen.KernelIdeal.Frame
import Idealize.ShloMosaic.PureOps.Ideal
import Idealize.ShloMosaic.Lib.Pipeline.Value
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The flattened hidden states, the narrowed fused weight, and the bias argument, as functions of the launch memory. -/
abbrev flat (c : Dev nD) : S16384x2048.Idx → Elt Ideal .f32 :=
  shapeCast S16384x2048 (m ((c : Thread nD τ).loc main_arg0)) shapeCasts_S4x4096x2048_S16384x2048
abbrev narrowed (c : Dev nD) : FVec Ideal S2048x6144 .bf16 :=
  truncf (F := Ideal) .bf16 (m ((c : Thread nD τ).loc main_arg1) : FVec Ideal S2048x6144 .f32) bitsLt_bf16_f32
abbrev bias (c : Dev nD) : S6144.Idx → Elt Ideal .f32 := m ((c : Thread nD τ).loc main_arg2)

/-! ## After the first stretch -/

theorem W1_flat (c : Dev nD) : W1 m ρ c (Proc.devRef .tc main_v0) = flat m c := by
  show StableHlo.after hostOps0 (W0 m ρ c) (Proc.devRef .tc main_v0) = _
  after_results
  rfl
theorem W1_narrowed (c : Dev nD) : W1 m ρ c (Proc.devRef .tc main_v1) = narrowed m c := by
  show StableHlo.after hostOps0 (W0 m ρ c) (Proc.devRef .tc main_v1) = _
  after_results
theorem W1_bias (c : Dev nD) : W1 m ρ c (Proc.devRef .tc main_arg2) = bias m c := by
  show StableHlo.after hostOps0 (W0 m ρ c) (Proc.devRef .tc main_arg2) = _
  after_results

/-- Region 0's three input arrays. -/
theorem V1_rows (c : Dev nD) : V1 m ρ c main_v0 = flat m c := W1_flat m ρ c
theorem V1_weights (c : Dev nD) :
    V1 m ρ c main_v2 = extractStridedSlice S2048x2048 ![0, 0] (narrowed m c) slices_S2048x6144_S2048x2048_0_0 := by
  show StableHlo.after hostOps0 (W0 m ρ c) (Proc.devRef .tc main_v2) = _
  after_results
theorem V1_biasrow (c : Dev nD) :
    V1 m ρ c main_v4 = shapeCast S1x2048 (extractStridedSlice S2048 ![0] (bias m c) slices_S6144_S2048_0) shapeCasts_S2048_S1x2048 := by
  show StableHlo.after hostOps0 (W0 m ρ c) (Proc.devRef .tc main_v4) = _
  after_results
  rfl

/-! ## Through region 0 and the second stretch -/

theorem W2_flat (c : Dev nD) : W2 m ρ c (Proc.devRef .tc main_v0) = flat m c :=
  (W2_arr m ρ c 0).trans (((dat0 (V1 m ρ) c).arrAt_in 0 rfl _).trans ((A_eq0 (V1 m ρ) c 0).trans (W1_flat m ρ c)))
theorem W2_narrowed (c : Dev nD) : W2 m ρ c (Proc.devRef .tc main_v1) = narrowed m c :=
  (W2_of_ne m ρ c main_v1 (by decide)).trans (W1_narrowed m ρ c)
theorem W2_bias (c : Dev nD) : W2 m ρ c (Proc.devRef .tc main_arg2) = bias m c :=
  (W2_of_ne m ρ c main_arg2 (by decide)).trans (W1_bias m ρ c)

theorem W3_flat (c : Dev nD) : W3 m ρ c (Proc.devRef .tc main_v0) = flat m c := by
  show StableHlo.after hostOps1 (W2 m ρ c) (Proc.devRef .tc main_v0) = _
  after_results
  exact W2_flat m ρ c
theorem W3_narrowed (c : Dev nD) : W3 m ρ c (Proc.devRef .tc main_v1) = narrowed m c := by
  show StableHlo.after hostOps1 (W2 m ρ c) (Proc.devRef .tc main_v1) = _
  after_results
  exact W2_narrowed m ρ c
theorem W3_bias (c : Dev nD) : W3 m ρ c (Proc.devRef .tc main_arg2) = bias m c := by
  show StableHlo.after hostOps1 (W2 m ρ c) (Proc.devRef .tc main_arg2) = _
  after_results
  exact W2_bias m ρ c

/-- Region 1's three input arrays. -/
theorem V3_rows (c : Dev nD) : V3 m ρ c main_v0 = flat m c := W3_flat m ρ c
theorem V3_weights (c : Dev nD) :
    V3 m ρ c main_v6 = extractStridedSlice S2048x2048 ![0, 2048] (narrowed m c) slices_S2048x6144_S2048x2048_0_2048 := by
  show StableHlo.after hostOps1 (W2 m ρ c) (Proc.devRef .tc main_v6) = _
  after_results
  rw [W2_narrowed]
theorem V3_biasrow (c : Dev nD) :
    V3 m ρ c main_v8 = shapeCast S1x2048 (extractStridedSlice S2048 ![2048] (bias m c) slices_S6144_S2048_2048) shapeCasts_S2048_S1x2048 := by
  show StableHlo.after hostOps1 (W2 m ρ c) (Proc.devRef .tc main_v8) = _
  after_results
  rw [W2_bias]
  rfl

/-! ## Through region 1 and the third stretch -/

theorem W4_flat (c : Dev nD) : W4 m ρ c (Proc.devRef .tc main_v0) = flat m c :=
  (W4_arr m ρ c 0).trans (((dat1 (V3 m ρ) c).arrAt_in 0 rfl _).trans ((A_eq1 (V3 m ρ) c 0).trans (W3_flat m ρ c)))
theorem W4_narrowed (c : Dev nD) : W4 m ρ c (Proc.devRef .tc main_v1) = narrowed m c :=
  (W4_of_ne m ρ c main_v1 (by decide)).trans (W3_narrowed m ρ c)
theorem W4_bias (c : Dev nD) : W4 m ρ c (Proc.devRef .tc main_arg2) = bias m c :=
  (W4_of_ne m ρ c main_arg2 (by decide)).trans (W3_bias m ρ c)

/-- Region 2's three input arrays. -/
theorem V5_rows (c : Dev nD) : V5 m ρ c main_v0 = flat m c := by
  show StableHlo.after hostOps2 (W4 m ρ c) (Proc.devRef .tc main_v0) = _
  after_results
  exact W4_flat m ρ c
theorem V5_weights (c : Dev nD) :
    V5 m ρ c main_v10 = extractStridedSlice S2048x2048 ![0, 4096] (narrowed m c) slices_S2048x6144_S2048x2048_0_4096 := by
  show StableHlo.after hostOps2 (W4 m ρ c) (Proc.devRef .tc main_v10) = _
  after_results
  rw [W4_narrowed]
theorem V5_biasrow (c : Dev nD) :
    V5 m ρ c main_v12 = shapeCast S1x2048 (extractStridedSlice S2048 ![4096] (bias m c) slices_S6144_S2048_4096) shapeCasts_S2048_S1x2048 := by
  show StableHlo.after hostOps2 (W4 m ρ c) (Proc.devRef .tc main_v12) = _
  after_results
  rw [W4_bias]
  rfl

/-! ## The three results at the return -/

/-- The value section is what region 2 left in its output array. -/
theorem W6_value (c : Dev nD) : W6 m ρ c (Proc.devRef .tc main_v13) = (dat2 (V5 m ρ) c).arrAt 3 cfg2.N :=
  W6_arr m ρ c 3

/-- The key section is what region 1 left: region 2 and the third stretch do not touch it. -/
theorem W6_key (c : Dev nD) : W6 m ρ c (Proc.devRef .tc main_v9) = (dat1 (V3 m ρ) c).arrAt 3 cfg1.N := by
  refine (W6_of_ne m ρ c main_v9 (by decide)).trans ?_
  show StableHlo.after hostOps2 (W4 m ρ c) (Proc.devRef .tc main_v9) = _
  after_results
  exact W4_arr m ρ c 3

/-- The query section is what region 0 left: nothing after region 0 touches it. -/
theorem W6_query (c : Dev nD) : W6 m ρ c (Proc.devRef .tc main_v5) = (dat0 (V1 m ρ) c).arrAt 3 cfg0.N := by
  refine (W6_of_ne m ρ c main_v5 (by decide)).trans ?_
  show StableHlo.after hostOps2 (W4 m ρ c) (Proc.devRef .tc main_v5) = _
  after_results
  refine (W4_of_ne m ρ c main_v5 (by decide)).trans ?_
  show StableHlo.after hostOps1 (W2 m ρ c) (Proc.devRef .tc main_v5) = _
  after_results
  exact W2_arr m ρ c 3

end Cert.KernelIdeal.Boundaries

end
-- ==== Proof.QkvTile.lean ====
/-
  One grid point's arithmetic, read at an index.

  The body loads a row tile `a : [1024, 2048]` of the flattened hidden states, a column tile `w : [2048, 512]`
  of one section's weights (four heads of 128 lanes) and the matching bias tile `b : [1, 512]`, forms
  `a · w + b` as `[1024, 512]`, cuts each row into its four heads `[1024, 4, 128]`, swaps rows and heads
  `[4, 1024, 128]` and stores that with a leading unit axis. So entry `(0, g, r, l)` of the stored block is
  `Σ_k a[r, k] · w[k, g · 128 + l] + b[0, g · 128 + l]`: the layout steps only rename the index, and on the
  extended reals the product into the zero accumulator is the plain sum (the narrowing of `a` to bf16 is the
  identity there).
-/
import proofs.«117544_j51977694216468_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- Lane `l` of the tile's head `g` is column `g · 128 + l` of the `[·, 512]` tile. -/
def tcol (g : Fin 4) (l : Fin 128) : Fin 512 := ⟨g.val * 128 + l.val, by have := g.isLt; have := l.isLt; omega⟩

theorem tcol_val (g : Fin 4) (l : Fin 128) : (tcol g l).val = g.val * 128 + l.val := rfl

/-- The product's operand indices at output index `j` and contraction index `q`: the left operand is read at row
    `j 0` and the contraction coordinate, the right at the contraction coordinate and column `j 1`. -/
theorem lhs_row (j : S1024x512.Idx) (q : dot_S1024x2048_S2048x512_S1024x512_1_0_0_1_n_n.contr.Idx) :
    (dot_S1024x2048_S2048x512_S1024x512_1_0_0_1_n_n.lhsIdx j q 0).val = (j 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl
theorem lhs_contr (j : S1024x512.Idx) (q : dot_S1024x2048_S2048x512_S1024x512_1_0_0_1_n_n.contr.Idx) :
    (dot_S1024x2048_S2048x512_S1024x512_1_0_0_1_n_n.lhsIdx j q 1).val = (q ⟨0, by decide⟩).val :=
  dot_S1024x2048_S2048x512_S1024x512_1_0_0_1_n_n.lhsIdx_val_of_single rfl j q
theorem rhs_contr (j : S1024x512.Idx) (q : dot_S1024x2048_S2048x512_S1024x512_1_0_0_1_n_n.contr.Idx) :
    (dot_S1024x2048_S2048x512_S1024x512_1_0_0_1_n_n.rhsIdx j q 0).val = (q ⟨0, by decide⟩).val :=
  dot_S1024x2048_S2048x512_S1024x512_1_0_0_1_n_n.rhsIdx_val_of_single rfl j q
theorem rhs_col (j : S1024x512.Idx) (q : dot_S1024x2048_S2048x512_S1024x512_1_0_0_1_n_n.contr.Idx) :
    (dot_S1024x2048_S2048x512_S1024x512_1_0_0_1_n_n.rhsIdx j q 1).val = (j 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-- The tile product into the zero accumulator, at row `r` and column `c`: the sum over the 2048 hidden
    coordinates of the row's entry times the column's. -/
theorem matmul_tile_apply (a : FVec Ideal S1024x2048 .bf16) (w : FVec Ideal S2048x512 .bf16) (r : Fin 1024) (c : Fin 512) :
    matmul dot_S1024x2048_S2048x512_S1024x512_1_0_0_1_n_n none a w (constant (F := Ideal) S1024x512 .f32 0x00000000#32) (ix2 r c)
      = ∑ k : Fin 2048, a (ix2 r k) * w (ix2 k c) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 r c) ((contrEquiv1 dot_S1024x2048_S2048x512_S1024x512_1_0_0_1_n_n 2048 rfl rfl).symm k) = ix2 r k :=
    funext fun a => Fin.ext (by
      match a with
      | ⟨0, _⟩ => exact lhs_row _ _
      | ⟨1, _⟩ => exact (lhs_contr _ _).trans hk)
  have er : dot_S1024x2048_S2048x512_S1024x512_1_0_0_1_n_n.rhsIdx (ix2 r c) ((contrEquiv1 dot_S1024x2048_S2048x512_S1024x512_1_0_0_1_n_n 2048 rfl rfl).symm k) = ix2 k c :=
    funext fun a => Fin.ext (by
      match a with
      | ⟨0, _⟩ => exact (rhs_contr _ _).trans hk
      | ⟨1, _⟩ => exact rhs_col _ _)
  rw [el, er]

/-- The bias row spread over the 1024 rows, at row `r` and column `c`: the bias at column `c`. -/
theorem bias_tile_apply (b : FVec Ideal S1x512 .f32) (r : Fin 1024) (c : Fin 512) :
    broadcastTo S1024x512 b broadcasts_S1x512_S1024x512 (ix2 r c) = b (ix2 (0 : Fin 1) c) :=
  broadcastTo_apply b broadcasts_S1x512_S1024x512 (ix2 r c) (ix2 (0 : Fin 1) c) (fun a => match a with
    | ⟨0, _⟩ => by show (0 : Nat) = if (1 : Nat) = 1 then 0 else r.val; rw [if_pos rfl]
    | ⟨1, _⟩ => by show c.val = if (512 : Nat) = 1 then 0 else c.val; rw [if_neg (by decide)])

/-- The layout steps of the store: the block's entry `(0, g, r, l)` is the `[1024, 512]` value's entry
    `(r, g · 128 + l)`. -/
theorem relayout_apply (y : FVec Ideal S1024x512 .f32) (g : Fin 4) (r : Fin 1024) (l : Fin 128) :
    shapeCast S1x4x1024x128
        (transpose S4x1024x128 [1, 0, 2] (shapeCast S1024x4x128 y shapeCasts_S1024x512_S1024x4x128)
          transposes_S1024x4x128_p1_0_2_S4x1024x128)
        shapeCasts_S4x1024x128_S1x4x1024x128 (ix4 (0 : Fin 1) g r l)
      = y (ix2 r (tcol g l)) := by
  refine (shapeCast_apply _ shapeCasts_S4x1024x128_S1x4x1024x128 (ix4 (0 : Fin 1) g r l) (ix3 g r l) ?_).trans ?_
  · rw [Shape.rowMajor_val_three, Shape.rowMajor_val_four]
    show (g.val * 1024 + r.val) * 128 + l.val = (((0 : Nat) * 4 + g.val) * 1024 + r.val) * 128 + l.val
    omega
  refine (transpose_apply [1, 0, 2] _ transposes_S1024x4x128_p1_0_2_S4x1024x128 (ix3 g r l) (ix3 r g l) (fun b => match b with
    | ⟨0, _⟩ => rfl
    | ⟨1, _⟩ => rfl
    | ⟨2, _⟩ => rfl)).trans ?_
  refine shapeCast_apply y shapeCasts_S1024x512_S1024x4x128 (ix3 r g l) (ix2 r (tcol g l)) ?_
  rw [Shape.rowMajor_val_two, Shape.rowMajor_val_three]
  show r.val * 512 + (g.val * 128 + l.val) = (r.val * 4 + g.val) * 128 + l.val
  omega

/-- THE BODY'S STORE at `(0, g, r, l)`, from the three loaded tiles. -/
theorem pay_apply (x0 : Vec Ideal S1024x2048 .f32) (x1 : Vec Ideal S2048x512 .bf16) (x2 : Vec Ideal S1x512 .f32)
    (g : Fin 4) (r : Fin 1024) (l : Fin 128) :
    k0_pay1 (F := Ideal) x0 x1 x2 (ix4 (0 : Fin 1) g r l)
      = (∑ k : Fin 2048, x0 (ix2 r k) * x1 (ix2 k (tcol g l))) + x2 (ix2 (0 : Fin 1) (tcol g l)) := by
  unfold k0_pay1
  refine (relayout_apply _ g r l).trans ?_
  rw [shapeCast_self, shapeCast_self, shapeCast_self]
  refine (addf_apply _ _ _).trans ?_
  rw [matmul_tile_apply, bias_tile_apply]
  rfl

/-- The three regions run the same body text. -/
theorem k1_pay1_eq : @k1_pay1 Ideal _ = @k0_pay1 Ideal _ := rfl
theorem k2_pay1_eq : @k2_pay1 Ideal _ = @k0_pay1 Ideal _ := rfl

end Cert.KernelIdeal.Tile

end
-- ==== Proof.QkvSpec.lean ====
/-
  The fused QKV projection, as ONE function of the three argument arrays.

  With `x : [4, 4096, 2048]` (batch, token, hidden), `w : [2048, 6144]` and `b : [6144]`, the fused product
  `y[p, r, c] = Σ_k x[p, r, k] · w[k, c] + b[c]` has 6144 = 3 · 2048 columns: columns `off … off + 2047`
  (`off` = 0, 2048, 4096) are the query, key and value sections, and inside a section column `g · 128 + l` is lane `l`
  of head `g`. A section laid out head-major is the array `[4, 16, 4096, 128]` whose entry `(p, g, r, l)` is
  `y[p, r, off + g · 128 + l]`. Both programs compute exactly this, the kernel tile by tile and the reference
  as one product followed by slices, a reshape and a transpose; on the extended reals the two sums have the same
  terms in the same order, so no law of arithmetic is needed and no finiteness.
-/
import Idealize.ShloMosaic.PureOps.Ideal
import Idealize.ShloMosaic.Lib.ValueIdx

noncomputable section

open scoped BigOperators

namespace Cert.Qkv

open Idealize.ShloMosaic Idealize.ShloMosaic.ValueIdx

/-- The column of the fused weight that lane `l` of head `g` reads in the section starting at column `off`. -/
def col (off : Nat) (hoff : off + 2048 ≤ 6144) (g : Fin 16) (l : Fin 128) : Fin 6144 :=
  ⟨off + g.val * 128 + l.val, by have := g.isLt; have := l.isLt; omega⟩

theorem col_val (off : Nat) (hoff : off + 2048 ≤ 6144) (g : Fin 16) (l : Fin 128) :
    (col off hoff g l).val = off + g.val * 128 + l.val := rfl

/-- One entry of a section: batch `p`, head `g`, token `r`, lane `l`. -/
def entry (off : Nat) (hoff : off + 2048 ≤ 6144)
    (x : (⟨3, ![4, 4096, 2048]⟩ : Shape).Idx → EReal) (w : (⟨2, ![2048, 6144]⟩ : Shape).Idx → EReal)
    (b : (⟨1, ![6144]⟩ : Shape).Idx → EReal) (p : Fin 4) (g : Fin 16) (r : Fin 4096) (l : Fin 128) : EReal :=
  (∑ k : Fin 2048, x (ix3 p r k) * w (ix2 k (col off hoff g l))) + b (ix1 (col off hoff g l))

/-- The section starting at column `off`, head-major: `[4, 16, 4096, 128]`. -/
def heads (off : Nat) (hoff : off + 2048 ≤ 6144)
    (x : (⟨3, ![4, 4096, 2048]⟩ : Shape).Idx → EReal) (w : (⟨2, ![2048, 6144]⟩ : Shape).Idx → EReal)
    (b : (⟨1, ![6144]⟩ : Shape).Idx → EReal) : (⟨4, ![4, 16, 4096, 128]⟩ : Shape).Idx → EReal :=
  fun i => entry off hoff x w b (i 0) (i 1) (i 2) (i 3)

theorem heads_ix4 (off : Nat) (hoff : off + 2048 ≤ 6144)
    (x : (⟨3, ![4, 4096, 2048]⟩ : Shape).Idx → EReal) (w : (⟨2, ![2048, 6144]⟩ : Shape).Idx → EReal)
    (b : (⟨1, ![6144]⟩ : Shape).Idx → EReal) (p : Fin 4) (g : Fin 16) (r : Fin 4096) (l : Fin 128) :
    heads off hoff x w b (ix4 p g r l) = entry off hoff x w b p g r l := rfl

end Cert.Qkv

end
-- ==== Proof.QkvSection.lean ====
/-
  One section as the kernel's regions see it, and why it is the fused form.

  A region is handed the hidden states flattened to rows `a : [16384, 2048]` (row `p · 4096 + r` is token `r` of
  batch `p`), one section's weights `w : [2048, 2048]` and its bias as a row `b : [1, 2048]`, and fills
  `[4, 16, 4096, 128]` with `Σ_k a[p · 4096 + r, k] · w[k, g · 128 + l] + b[0, g · 128 + l]` at `(p, g, r, l)`
  (`rows` below). When `a` is the reshape of `x : [4, 4096, 2048]`, `w` the columns `off … off + 2047` of the fused
  weight and `b` those entries of the fused bias set as a row, every factor and the bias are the fused form's, term by
  term: `rows_eq_heads`.
-/
import proofs.«117544_j51977694216468_2_alg».proof.Proof.QkvSpec
import Idealize.ShloMosaic.Lib.Pipeline.Value

noncomputable section

open scoped BigOperators

namespace Cert.Qkv

open Idealize.ShloMosaic Idealize.ShloMosaic.ValueIdx

/-- Token `r` of batch `p` is row `p · 4096 + r` of the flattened hidden states. -/
def rowOf (p : Fin 4) (r : Fin 4096) : Fin 16384 := ⟨p.val * 4096 + r.val, by have := p.isLt; have := r.isLt; omega⟩
/-- Lane `l` of head `g` is column `g · 128 + l` of a section. -/
def hcol (g : Fin 16) (l : Fin 128) : Fin 2048 := ⟨g.val * 128 + l.val, by have := g.isLt; have := l.isLt; omega⟩

theorem rowOf_val (p : Fin 4) (r : Fin 4096) : (rowOf p r).val = p.val * 4096 + r.val := rfl
theorem hcol_val (g : Fin 16) (l : Fin 128) : (hcol g l).val = g.val * 128 + l.val := rfl

/-- One entry of a section computed from rows. -/
def rowsEntry (a : (⟨2, ![16384, 2048]⟩ : Shape).Idx → EReal) (w : (⟨2, ![2048, 2048]⟩ : Shape).Idx → EReal)
    (b : (⟨2, ![1, 2048]⟩ : Shape).Idx → EReal) (p : Fin 4) (g : Fin 16) (r : Fin 4096) (l : Fin 128) : EReal :=
  (∑ k : Fin 2048, a (ix2 (rowOf p r) k) * w (ix2 k (hcol g l))) + b (ix2 (0 : Fin 1) (hcol g l))

/-- A section computed from rows, head-major. -/
def rows (a : (⟨2, ![16384, 2048]⟩ : Shape).Idx → EReal) (w : (⟨2, ![2048, 2048]⟩ : Shape).Idx → EReal)
    (b : (⟨2, ![1, 2048]⟩ : Shape).Idx → EReal) : (⟨4, ![4, 16, 4096, 128]⟩ : Shape).Idx → EReal :=
  fun i => rowsEntry a w b (i 0) (i 1) (i 2) (i 3)

/-- The flattened hidden states at row `p · 4096 + r`: the hidden states at `(p, r)`. -/
theorem flat_apply (x : (⟨3, ![4, 4096, 2048]⟩ : Shape).Idx → EReal)
    (h : (⟨3, ![4, 4096, 2048]⟩ : Shape).ShapeCasts ⟨2, ![16384, 2048]⟩) (p : Fin 4) (r : Fin 4096) (k : Fin 2048) :
    shapeCast ⟨2, ![16384, 2048]⟩ x h (ix2 (rowOf p r) k) = x (ix3 p r k) := by
  refine shapeCast_apply x h (ix2 (rowOf p r) k) (ix3 p r k) ?_
  rw [Shape.rowMajor_val_two, Shape.rowMajor_val_three]
  show (p.val * 4096 + r.val) * 2048 + k.val = (p.val * 4096 + r.val) * 2048 + k.val
  rfl

/-- The columns `off … off + 2047` of the fused weight, at `(k, g · 128 + l)`: the fused weight at column
    `off + g · 128 + l`. -/
theorem wsec_apply (off : Nat) (hoff : off + 2048 ≤ 6144) (w : (⟨2, ![2048, 6144]⟩ : Shape).Idx → EReal)
    (h : (⟨2, ![2048, 6144]⟩ : Shape).Slices ![0, off] ⟨2, ![2048, 2048]⟩) (k : Fin 2048) (g : Fin 16) (l : Fin 128) :
    extractStridedSlice ⟨2, ![2048, 2048]⟩ ![0, off] w h (ix2 k (hcol g l)) = w (ix2 k (col off hoff g l)) :=
  extractStridedSlice_apply ![0, off] w h (ix2 k (hcol g l)) (ix2 k (col off hoff g l)) (fun a => match a with
    | ⟨0, _⟩ => by show k.val = 0 + k.val; omega
    | ⟨1, _⟩ => by show off + g.val * 128 + l.val = off + (g.val * 128 + l.val); omega)

/-- The entries `off … off + 2047` of the fused bias set as a row, at `(0, g · 128 + l)`: the fused bias at
    `off + g · 128 + l`. -/
theorem bsec_apply (off : Nat) (hoff : off + 2048 ≤ 6144) (b : (⟨1, ![6144]⟩ : Shape).Idx → EReal)
    (h : (⟨1, ![6144]⟩ : Shape).Slices ![off] ⟨1, ![2048]⟩) (h' : (⟨1, ![2048]⟩ : Shape).ShapeCasts ⟨2, ![1, 2048]⟩)
    (g : Fin 16) (l : Fin 128) :
    shapeCast ⟨2, ![1, 2048]⟩ (extractStridedSlice ⟨1, ![2048]⟩ ![off] b h) h' (ix2 (0 : Fin 1) (hcol g l))
      = b (ix1 (col off hoff g l)) := by
  refine (shapeCast_apply _ h' (ix2 (0 : Fin 1) (hcol g l)) (ix1 (hcol g l)) ?_).trans ?_
  · rw [Shape.rowMajor_val_one, Shape.rowMajor_val_two]
    show g.val * 128 + l.val = 0 * 2048 + (g.val * 128 + l.val)
    omega
  exact extractStridedSlice_apply ![off] b h (ix1 (hcol g l)) (ix1 (col off hoff g l)) (fun a => match a with
    | ⟨0, _⟩ => by show off + g.val * 128 + l.val = off + (g.val * 128 + l.val); omega)

/-- A SECTION FROM ROWS IS THE FUSED FORM'S SECTION, when the rows are the reshaped hidden states and the section's
    weights and bias are cut from the fused ones at `off`. -/
theorem rows_eq_heads (off : Nat) (hoff : off + 2048 ≤ 6144)
    (x : (⟨3, ![4, 4096, 2048]⟩ : Shape).Idx → EReal) (w : (⟨2, ![2048, 6144]⟩ : Shape).Idx → EReal)
    (b : (⟨1, ![6144]⟩ : Shape).Idx → EReal)
    (hx : (⟨3, ![4, 4096, 2048]⟩ : Shape).ShapeCasts ⟨2, ![16384, 2048]⟩)
    (hw : (⟨2, ![2048, 6144]⟩ : Shape).Slices ![0, off] ⟨2, ![2048, 2048]⟩)
    (hb : (⟨1, ![6144]⟩ : Shape).Slices ![off] ⟨1, ![2048]⟩) (hb' : (⟨1, ![2048]⟩ : Shape).ShapeCasts ⟨2, ![1, 2048]⟩) :
    rows (shapeCast ⟨2, ![16384, 2048]⟩ x hx) (extractStridedSlice ⟨2, ![2048, 2048]⟩ ![0, off] w hw)
        (shapeCast ⟨2, ![1, 2048]⟩ (extractStridedSlice ⟨1, ![2048]⟩ ![off] b hb) hb')
      = heads off hoff x w b := by
  funext i
  obtain ⟨p, g, r, l, rfl⟩ : ∃ (p : Fin 4) (g : Fin 16) (r : Fin 4096) (l : Fin 128), i = ix4 p g r l :=
    ⟨i 0, i 1, i 2, i 3, eq_ix4 i⟩
  show rowsEntry _ _ _ p g r l = entry off hoff x w b p g r l
  unfold rowsEntry entry
  rw [bsec_apply off hoff b hb hb' g l]
  refine congrArg (· + b (ix1 (col off hoff g l))) (Finset.sum_congr rfl fun k _ => ?_)
  rw [flat_apply x hx p r k, wsec_apply off hoff w hw k g l]

end Cert.Qkv

end
-- ==== Proof.QkvBlock.lean ====
/-
  One grid point's block is a block of the section.

  Grid point number `n` (of 64 = 16 row tiles × 4 head groups, row tile `n / 4`, head group `n % 4`) reads rows
  `(n / 4) · 1024 …` of the flattened hidden states, columns `(n % 4) · 512 …` of the section's weights and bias, and
  writes the output block at batch `n / 16`, heads `(n % 4) · 4 …`, tokens `(n / 4 % 4) · 1024 …`. Row tile
  `n / 4` is token tile `n / 4 % 4` of batch `n / 16`, so its rows are `(n / 16) · 4096 + (n / 4 % 4) · 1024 + r`; and
  column `(n % 4) · 512 + g · 128 + l` is lane `l` of head `(n % 4) · 4 + g`. With the body's value at an index
  (`Tile.pay_apply`) that makes the stored block, entry by entry, the section computed from rows (`Qkv.rows`) read
  at the block's place in the array. Stated over arbitrary placements `e0 … e3` of the four blocks whose coordinates
  are those above; a region supplies its windows' placements.
-/
import proofs.«117544_j51977694216468_2_alg».proof.Proof.QkvTile
import proofs.«117544_j51977694216468_2_alg».proof.Proof.QkvSection

noncomputable section

open scoped BigOperators

namespace Cert.KernelIdeal.Tile

open Cert.KernelIdeal Cert.KernelIdeal.Gen Idealize.ShloMosaic Idealize.ShloMosaic.ValueIdx Cert.Qkv

theorem block_entry (x0 : Vec Ideal S1024x2048 .f32) (x1 : Vec Ideal S2048x512 .bf16) (x2 : Vec Ideal S1x512 .f32)
    (A : S16384x2048.Idx → EReal) (W : S2048x2048.Idx → EReal) (B : S1x2048.Idx → EReal)
    (e0 : S1024x2048.Idx → S16384x2048.Idx) (e1 : S2048x512.Idx → S2048x2048.Idx) (e2 : S1x512.Idx → S1x2048.Idx)
    (e3 : S1x4x1024x128.Idx → S4x16x4096x128.Idx)
    (h0 : ∀ y, x0 y = A (e0 y)) (h1 : ∀ y, x1 y = W (e1 y)) (h2 : ∀ y, x2 y = B (e2 y)) (n : Nat)
    (he0 : ∀ y, (e0 y 0).val = n / 4 * 1024 + 1 * (y 0).val ∧ (e0 y 1).val = 0 * 2048 + 1 * (y 1).val)
    (he1 : ∀ y, (e1 y 0).val = 0 * 2048 + 1 * (y 0).val ∧ (e1 y 1).val = n % 4 * 512 + 1 * (y 1).val)
    (he2 : ∀ y, (e2 y 0).val = 0 * 1 + 1 * (y 0).val ∧ (e2 y 1).val = n % 4 * 512 + 1 * (y 1).val)
    (he3 : ∀ y, (e3 y 0).val = n / 16 * 1 + 1 * (y 0).val ∧ (e3 y 1).val = n % 4 * 4 + 1 * (y 1).val
      ∧ (e3 y 2).val = n / 4 % 4 * 1024 + 1 * (y 2).val ∧ (e3 y 3).val = 0 * 128 + 1 * (y 3).val)
    (y : S1x4x1024x128.Idx) :
    k0_pay1 (F := Ideal) x0 x1 x2 y = rows A W B (e3 y) := by
  obtain ⟨u, g, r, l, rfl⟩ : ∃ (u : Fin 1) (g : Fin 4) (r : Fin 1024) (l : Fin 128), y = ix4 u g r l :=
    ⟨y 0, y 1, y 2, y 3, eq_ix4 y⟩
  obtain rfl : u = 0 := Subsingleton.elim _ _
  rw [pay_apply]
  obtain ⟨p, gg, rr, ll, hz⟩ : ∃ (p : Fin 4) (gg : Fin 16) (rr : Fin 4096) (ll : Fin 128),
      e3 (ix4 (0 : Fin 1) g r l) = ix4 p gg rr ll := ⟨_, _, _, _, eq_ix4 _⟩
  obtain ⟨a0, a1, a2, a3⟩ := he3 (ix4 (0 : Fin 1) g r l)
  rw [hz] at a0 a1 a2 a3 ⊢
  have b0 : p.val = n / 16 * 1 + 1 * 0 := a0
  have b1 : gg.val = n % 4 * 4 + 1 * g.val := a1
  have b2 : rr.val = n / 4 % 4 * 1024 + 1 * r.val := a2
  have b3 : ll.val = 0 * 128 + 1 * l.val := a3
  show _ = rowsEntry A W B p gg rr ll
  unfold rowsEntry
  have hb : x2 (ix2 (0 : Fin 1) (tcol g l)) = B (ix2 (0 : Fin 1) (hcol gg ll)) := by
    rw [h2]
    refine congrArg B (funext fun a => Fin.ext ?_)
    obtain ⟨c0, c1⟩ := he2 (ix2 (0 : Fin 1) (tcol g l))
    match a with
    | ⟨0, _⟩ => exact c0
    | ⟨1, _⟩ =>
      refine c1.trans ?_
      show n % 4 * 512 + 1 * (g.val * 128 + l.val) = gg.val * 128 + ll.val
      omega
  rw [hb]
  refine congrArg (· + B (ix2 (0 : Fin 1) (hcol gg ll))) (Finset.sum_congr rfl fun k _ => ?_)
  have ha : x0 (ix2 r k) = A (ix2 (rowOf p rr) k) := by
    rw [h0]
    refine congrArg A (funext fun a => Fin.ext ?_)
    obtain ⟨c0, c1⟩ := he0 (ix2 r k)
    match a with
    | ⟨0, _⟩ =>
      refine c0.trans ?_
      show n / 4 * 1024 + 1 * r.val = p.val * 4096 + rr.val
      omega
    | ⟨1, _⟩ =>
      refine c1.trans ?_
      show 0 * 2048 + 1 * k.val = k.val
      omega
  have hw : x1 (ix2 k (tcol g l)) = W (ix2 k (hcol gg ll)) := by
    rw [h1]
    refine congrArg W (funext fun a => Fin.ext ?_)
    obtain ⟨c0, c1⟩ := he1 (ix2 k (tcol g l))
    match a with
    | ⟨0, _⟩ =>
      refine c0.trans ?_
      show 0 * 2048 + 1 * k.val = k.val
      omega
    | ⟨1, _⟩ =>
      refine c1.trans ?_
      show n % 4 * 512 + 1 * (g.val * 128 + l.val) = gg.val * 128 + ll.val
      omega
  rw [ha, hw]

end Cert.KernelIdeal.Tile

end
-- ==== Proof.QkvRegion0.lean ====
/-
  Region 0 (the query section): from its blocks to the whole array.

  The region's grid has 64 points. Point `t` (row tile `t / 4`, head group `t % 4`) fetches its three input blocks,
  runs the body and writes the output block back; where the blocks sit is decided once over the grid (`placed`).
  What point `t` writes back is the block, at its place, of ONE array — the section computed from rows
  (`Qkv.rows`) of the three input arrays as the region finds them (`written_eq`: the body's value at an index, and
  the four placements). Every index of the output array lies in some point's block (`covered`: the 64 blocks
  `[1, 4, 1024, 128]` tile `[4, 16, 4096, 128]`), so after the last write-back the array is that section (`final`).
-/
import proofs.«117544_j51977694216468_2_alg».proof.Proof.Gen.KernelIdeal.Frame
import proofs.«117544_j51977694216468_2_alg».proof.Proof.QkvBlock
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Qkv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero4 : (![0, 0, 0, 0] : Fin 4 → Nat) = fun _ => 0 := funext fun a => by fin_cases a <;> rfl

/-- Where point `t`'s four blocks sit, as block indices per axis (the printed index maps, decided over the 64 points). -/
theorem placed : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 4) = t.val / 16 ∧ win0_3.index t (1 : Fin 4) = t.val % 4
    ∧ win0_3.index t (2 : Fin 4) = t.val / 4 % 4 ∧ win0_3.index t (3 : Fin 4) = 0 :=
  (by decide +kernel : ∀ t : Fin grid0.N, _)

/-- WHAT POINT `t` WRITES BACK is block `t` of the section computed from rows of the region's three input arrays. -/
theorem written_eq (c : Dev nD) (t : Fin cfg0.N) :
    (dat0 V c).flushed 3 t
      = ((cfg0.win 3).blk t).view.read (Elt Ideal) (rows (V c main_v0) (V c main_v2) (V c main_v4)) := by
  show (cfg0.win 3).cut (grid0.coords t) ((dat0 V c).after 3 t) = _
  rw [after0_3]
  unfold out0_3
  rw [View.canon_unit_zero zero4]
  simp only [View.ld_unit_zero (S := S1024x2048) zero2, View.ld_unit_zero (S := S2048x512) zero2,
    View.ld_unit_zero (S := S1x512) zero2]
  obtain ⟨f00, f01, f10, f11, f20, f21, f30, f31, f32, f33⟩ := placed t
  funext j
  exact Tile.block_entry (iblk0 V c 0 t) (iblk0 V c 1 t) (iblk0 V c 2 t) (V c main_v0) (V c main_v2) (V c main_v4)
    ((cfg0.win 0).blk t).view.emb ((cfg0.win 1).blk t).view.emb ((cfg0.win 2).blk t).view.emb
    ((cfg0.win 3).blk t).view.emb (fun _ => rfl) (fun _ => rfl) (fun _ => rfl) t.val
    (fun y => ⟨by show win0_0.index t (0 : Fin 2) * 1024 + 1 * (y 0).val = _; rw [f00],
      by show win0_0.index t (1 : Fin 2) * 2048 + 1 * (y 1).val = _; rw [f01]⟩)
    (fun y => ⟨by show win0_1.index t (0 : Fin 2) * 2048 + 1 * (y 0).val = _; rw [f10],
      by show win0_1.index t (1 : Fin 2) * 512 + 1 * (y 1).val = _; rw [f11]⟩)
    (fun y => ⟨by show win0_2.index t (0 : Fin 2) * 1 + 1 * (y 0).val = _; rw [f20],
      by show win0_2.index t (1 : Fin 2) * 512 + 1 * (y 1).val = _; rw [f21]⟩)
    (fun y => ⟨by show win0_3.index t (0 : Fin 4) * 1 + 1 * (y 0).val = _; rw [f30],
      by show win0_3.index t (1 : Fin 4) * 4 + 1 * (y 1).val = _; rw [f31],
      by show win0_3.index t (2 : Fin 4) * 1024 + 1 * (y 2).val = _; rw [f32],
      by show win0_3.index t (3 : Fin 4) * 128 + 1 * (y 3).val = _; rw [f33]⟩)
    j

/-- An index of the output array is in point `t`'s block iff each coordinate is in the block's range on its axis. -/
theorem mem_block (t : Fin cfg0.N) (i : S4x16x4096x128.Idx) :
    i ∈ ((cfg0.win 3).blk t).view.set ↔ ∀ a : Fin 4, win0_3.index t a * S1x4x1024x128.size a ≤ (i a).val
      ∧ (i a).val < win0_3.index t a * S1x4x1024x128.size a + S1x4x1024x128.size a := by
  show i ∈ ((View.whole main_v5).slice (win0_3.rect t)).set ↔ _
  rw [View.set_slice_whole, Rect.mem_set_unit]
  exact Iff.rfl

/-- EVERY INDEX IS WRITTEN: `(p, g, r, l)` lies in the block of the point with row tile `p · 4 + r / 1024` and head
    group `g / 4`. -/
theorem covered (i : S4x16x4096x128.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 4096 := (i 2).isLt
  have h3 : (i 3).val < 128 := (i 3).isLt
  have hN : cfg0.N = 64 := N_0
  obtain ⟨t, ht⟩ : ∃ t : Fin cfg0.N, t.val = ((i 0).val * 4 + (i 2).val / 1024) * 4 + (i 1).val / 4 :=
    ⟨⟨((i 0).val * 4 + (i 2).val / 1024) * 4 + (i 1).val / 4, by rw [hN]; omega⟩, rfl⟩
  obtain ⟨-, -, -, -, -, -, f30, f31, f32, f33⟩ := placed t
  refine ⟨t, flush0_3 t, ?_⟩
  rw [mem_block]
  intro a
  match a with
  | ⟨0, _⟩ =>
    show win0_3.index t (0 : Fin 4) * 1 ≤ (i 0).val ∧ (i 0).val < win0_3.index t (0 : Fin 4) * 1 + 1
    rw [f30]; omega
  | ⟨1, _⟩ =>
    show win0_3.index t (1 : Fin 4) * 4 ≤ (i 1).val ∧ (i 1).val < win0_3.index t (1 : Fin 4) * 4 + 4
    rw [f31]; omega
  | ⟨2, _⟩ =>
    show win0_3.index t (2 : Fin 4) * 1024 ≤ (i 2).val ∧ (i 2).val < win0_3.index t (2 : Fin 4) * 1024 + 1024
    rw [f32]; omega
  | ⟨3, _⟩ =>
    show win0_3.index t (3 : Fin 4) * 128 ≤ (i 3).val ∧ (i 3).val < win0_3.index t (3 : Fin 4) * 128 + 128
    rw [f33]; omega

/-- THE OUTPUT ARRAY AFTER THE REGION: the section computed from rows of the three input arrays as entered. -/
theorem final (c : Dev nD) :
    (dat0 V c).arrAt 3 cfg0.N = rows (V c main_v0) (V c main_v2) (V c main_v4) :=
  (dat0 V c).arrAt_eq_of_cover 3 _ (fun t _ => written_eq V c t) covered

end Cert.KernelIdeal.Region0

end
-- ==== Proof.QkvRegion1.lean ====
/-
  Region 1 (the key section): from its blocks to the whole array.

  The region's grid has 64 points. Point `t` (row tile `t / 4`, head group `t % 4`) fetches its three input blocks,
  runs the body and writes the output block back; where the blocks sit is decided once over the grid (`placed`).
  What point `t` writes back is the block, at its place, of ONE array — the section computed from rows
  (`Qkv.rows`) of the three input arrays as the region finds them (`written_eq`: the body's value at an index, and
  the four placements). Every index of the output array lies in some point's block (`covered`: the 64 blocks
  `[1, 4, 1024, 128]` tile `[4, 16, 4096, 128]`), so after the last write-back the array is that section (`final`).
-/
import proofs.«117544_j51977694216468_2_alg».proof.Proof.Gen.KernelIdeal.Frame
import proofs.«117544_j51977694216468_2_alg».proof.Proof.QkvBlock
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Qkv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero4 : (![0, 0, 0, 0] : Fin 4 → Nat) = fun _ => 0 := funext fun a => by fin_cases a <;> rfl

/-- Where point `t`'s four blocks sit, as block indices per axis (the printed index maps, decided over the 64 points). -/
theorem placed : ∀ t : Fin cfg1.N,
    win1_0.index t (0 : Fin 2) = t.val / 4 ∧ win1_0.index t (1 : Fin 2) = 0
    ∧ win1_1.index t (0 : Fin 2) = 0 ∧ win1_1.index t (1 : Fin 2) = t.val % 4
    ∧ win1_2.index t (0 : Fin 2) = 0 ∧ win1_2.index t (1 : Fin 2) = t.val % 4
    ∧ win1_3.index t (0 : Fin 4) = t.val / 16 ∧ win1_3.index t (1 : Fin 4) = t.val % 4
    ∧ win1_3.index t (2 : Fin 4) = t.val / 4 % 4 ∧ win1_3.index t (3 : Fin 4) = 0 :=
  (by decide +kernel : ∀ t : Fin grid1.N, _)

/-- WHAT POINT `t` WRITES BACK is block `t` of the section computed from rows of the region's three input arrays. -/
theorem written_eq (c : Dev nD) (t : Fin cfg1.N) :
    (dat1 V c).flushed 3 t
      = ((cfg1.win 3).blk t).view.read (Elt Ideal) (rows (V c main_v0) (V c main_v6) (V c main_v8)) := by
  show (cfg1.win 3).cut (grid1.coords t) ((dat1 V c).after 3 t) = _
  rw [after1_3]
  unfold out1_3
  rw [View.canon_unit_zero zero4]
  simp only [View.ld_unit_zero (S := S1024x2048) zero2, View.ld_unit_zero (S := S2048x512) zero2,
    View.ld_unit_zero (S := S1x512) zero2]
  obtain ⟨f00, f01, f10, f11, f20, f21, f30, f31, f32, f33⟩ := placed t
  funext j
  exact Tile.block_entry (iblk1 V c 0 t) (iblk1 V c 1 t) (iblk1 V c 2 t) (V c main_v0) (V c main_v6) (V c main_v8)
    ((cfg1.win 0).blk t).view.emb ((cfg1.win 1).blk t).view.emb ((cfg1.win 2).blk t).view.emb
    ((cfg1.win 3).blk t).view.emb (fun _ => rfl) (fun _ => rfl) (fun _ => rfl) t.val
    (fun y => ⟨by show win1_0.index t (0 : Fin 2) * 1024 + 1 * (y 0).val = _; rw [f00],
      by show win1_0.index t (1 : Fin 2) * 2048 + 1 * (y 1).val = _; rw [f01]⟩)
    (fun y => ⟨by show win1_1.index t (0 : Fin 2) * 2048 + 1 * (y 0).val = _; rw [f10],
      by show win1_1.index t (1 : Fin 2) * 512 + 1 * (y 1).val = _; rw [f11]⟩)
    (fun y => ⟨by show win1_2.index t (0 : Fin 2) * 1 + 1 * (y 0).val = _; rw [f20],
      by show win1_2.index t (1 : Fin 2) * 512 + 1 * (y 1).val = _; rw [f21]⟩)
    (fun y => ⟨by show win1_3.index t (0 : Fin 4) * 1 + 1 * (y 0).val = _; rw [f30],
      by show win1_3.index t (1 : Fin 4) * 4 + 1 * (y 1).val = _; rw [f31],
      by show win1_3.index t (2 : Fin 4) * 1024 + 1 * (y 2).val = _; rw [f32],
      by show win1_3.index t (3 : Fin 4) * 128 + 1 * (y 3).val = _; rw [f33]⟩)
    j

/-- An index of the output array is in point `t`'s block iff each coordinate is in the block's range on its axis. -/
theorem mem_block (t : Fin cfg1.N) (i : S4x16x4096x128.Idx) :
    i ∈ ((cfg1.win 3).blk t).view.set ↔ ∀ a : Fin 4, win1_3.index t a * S1x4x1024x128.size a ≤ (i a).val
      ∧ (i a).val < win1_3.index t a * S1x4x1024x128.size a + S1x4x1024x128.size a := by
  show i ∈ ((View.whole main_v9).slice (win1_3.rect t)).set ↔ _
  rw [View.set_slice_whole, Rect.mem_set_unit]
  exact Iff.rfl

/-- EVERY INDEX IS WRITTEN: `(p, g, r, l)` lies in the block of the point with row tile `p · 4 + r / 1024` and head
    group `g / 4`. -/
theorem covered (i : S4x16x4096x128.Idx) :
    ∃ t : Fin cfg1.N, (cfg1.win 3).flush t = true ∧ i ∈ ((cfg1.win 3).blk t).view.set := by
  have h0 : (i 0).val < 4 := (i 0).isLt
  have h1 : (i 1).val < 16 := (i 1).isLt
  have h2 : (i 2).val < 4096 := (i 2).isLt
  have h3 : (i 3).val < 128 := (i 3).isLt
  have hN : cfg1.N = 64 := N_1
  obtain ⟨t, ht⟩ : ∃ t : Fin cfg1.N, t.val = ((i 0).val * 4 + (i 2).val / 1024) * 4 + (i 1).val / 4 :=
    ⟨⟨((i 0).val * 4 + (i 2).val / 1024) * 4 + (i 1).val / 4, by rw [hN]; omega⟩, rfl⟩
  obtain ⟨-, -, -, -, -, -, f30, f31, f32, f33⟩ := placed t
  refine ⟨t, flush1_3 t, ?_⟩
  rw [mem_block]
  intro a
  match a with
  | ⟨0, _⟩ =>
    show win1_3.index t (0 : Fin 4) * 1 ≤ (i 0).val ∧ (i 0).val < win1_3.index t (0 : Fin 4) * 1 + 1
    rw [f30]; omega
  | ⟨1, _⟩ =>
    show win1_3.index t (1 : Fin 4) * 4 ≤ (i 1).val ∧ (i 1).val < win1_3.index t (1 : Fin 4) * 4 + 4
    rw [f31]; omega
  | ⟨2, _⟩ =>
    show win1_3.index t (2 : Fin 4) * 1024 ≤ (i 2).val ∧ (i 2).val < win1_3.index t (2 : Fin 4) * 1024 + 1024
    rw [f32]; omega
  | ⟨3, _⟩ =>
    show win1_3.index t (3 : Fin 4) * 128 ≤ (i 3).val ∧ (i 3).val < win1_3.index t (3 : Fin 4) * 128 + 128
    rw [f33]; omega

/-- THE OUTPUT ARRAY AFTER THE REGION: the section computed from rows of the three input arrays as entered. -/
theorem final (c : Dev nD) :
    (dat1 V c).arrAt 3 cfg1.N = rows (V c main_v0) (V c main_v6) (V c main_v8) :=
  (dat1 V c).arrAt_eq_of_cover 3 _ (fun t _ => written_eq V c t) covered

end Cert.KernelIdeal.Region1

end
-- ==== Proof.QkvRegion2.lean ====
/-
  Region 2 (the value section): from its blocks to the whole array.

  The region's grid has 64 points. Point `t` (row tile `t / 4`, head group `t % 4`) fetches its three input blocks,
  runs the body and writes the output block back; where the blocks sit is decided once over the grid (`placed`).
  What point `t` writes back is the block, at its place, of ONE array — the section computed from rows
  (`Qkv.rows`) of the three input arrays as the region finds them (`written_eq`: the body's value at an index, and
  the four placements). Every index of the output array lies in some point's block (`covered`: the 64 blocks
  `[1, 4, 1024, 128]` tile `[4, 16, 4096, 128]`), so after the last write-back the array is that section (`final`).
-/
import proofs.«117544_j51977694216468_2_alg».proof.Proof.Gen.KernelIdeal.Frame
import proofs.«117544_j51977694216468_2_alg».proof.Proof.QkvBlock
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Qkv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero4 : (![0, 0, 0, 0] : Fin 4 → Nat) = fun _ => 0 := funext fun a => by fin_cases a <;> rfl

/-- Where point `t`'s four blocks sit, as block indices per axis (the printed index maps, decided over the 64 points). -/
theorem placed : ∀ t : Fin cfg2.N,
    win2_0.index t (0 : Fin 2) = t.val / 4 ∧ win2_0.index t (1 : Fin 2) = 0
    ∧ win2_1.index t (0 : Fin 2) = 0 ∧ win2_1.index t (1 : Fin 2) = t.val % 4
    ∧ win2_2.index t (0 : Fin 2) = 0 ∧ win2_2.index t (1 : Fin 2) = t.val % 4
    ∧ win2_3.index t (0 : Fin 4) = t.val / 16 ∧ win2_3.index t (1 : Fin 4) = t.val % 4
    ∧ win2_3.index t (2 : Fin 4) = t.val / 4 % 4 ∧ win2_3.index t (3 : Fin 4) = 0 :=
  (by decide +kernel : ∀ t : Fin grid2.N, _)

/-- WHAT POINT `t` WRITES BACK is block `t` of the section computed from rows of the region's three input arrays. -/
theorem written_eq (c : Dev nD) (t : Fin cfg2.N) :
    (dat2 V c).flushed 3 t
      = ((cfg2.win 3).blk t).view.read (Elt Ideal) (rows (V c main_v0) (V c main_v10) (V c main_v12)) := by
  show (cfg2.win 3).cut (grid2.coords t) ((dat2 V c).after 3 t) = _
  rw [after2_3]
  unfold out2_3
  rw [View.canon_unit_zero zero4]
  simp only [View.ld_unit_zero (S := S1024x2048) zero2, View.ld_unit_zero (S := S2048x512) zero2,
    View.ld_unit_zero (S := S1x512) zero2]
  obtain ⟨f00, f01, f10, f11, f20, f21, f30, f31, f32, f33⟩ := placed t
  funext j
  exact Tile.block_entry (iblk2 V c 0 t) (iblk2 V c 1 t) (iblk2 V c 2 t) (V c main_v0) (V c main_v10) (V c main_v12)
    ((cfg2.win 0).blk t).view.emb ((cfg2.win 1).blk t).view.emb ((cfg2.win 2).blk t).view.emb
    ((cfg2.win 3).blk t).view.emb (fun _ => rfl) (fun _ => rfl) (fun _ => rfl) t.val
    (fun y => ⟨by show win2_0.index t (0 : Fin 2) * 1024 + 1 * (y 0).val = _; rw [f00],
      by show win2_0.index t (1 : Fin 2) * 2048 + 1 * (y 1).val = _; rw [f01]⟩)
    (fun y => ⟨by show win2_1.index t (0 : Fin 2) * 2048 + 1 * (y 0).val = _; rw [f10],
      by show win2_1.index t (1 : Fin 2) * 512 + 1 * (y 1).val = _; rw [f11]⟩)
    (fun y => ⟨by show win2_2.index t (0 : Fin 2) * 1 + 1 * (y 0).val = _; rw [f20],
      by show win2_2.index t (1 : Fin 2) * 512 + 1 * (y 1).val = _; rw [f21]⟩)
    (fun y => ⟨by show win2_3.index t (0 : Fin 4) * 1 + 1 * (y 0).val = _; rw [f30],
      by show win2_3.index t (1 : Fin 4) * 4 + 1 * (y 1).val = _; rw [f31],
      by show win2_3.index t (2 : Fin 4) * 1024 + 1 * (y 2).val = _; rw [f32],
      by show win2_3.index t (3 : Fin 4) * 128 + 1 * (y 3).val = _; rw [f33]⟩)
    j

/-- An index of the output array is in point `t`'s block iff each coordinate is in the block's range on its axis. -/
theorem mem_block (t : Fin cfg2.N) (i : S4x16x4096x128.Idx) :
    i ∈ ((cfg2.win 3).blk t).view.set ↔ ∀ a : Fin 4, win2_3.index t a * S1x4x1024x128.size a ≤ (i a).val
      ∧ (i a).val < win2_3.index t a * S1x4x1024x128.size a + S1x4x1024x128.size a := by
  show i ∈ ((View.whole main_v13).slice (win2_3.rect t)).set ↔ _
  rw [View.set_slice_whole, Rect.mem_set_unit]
  exact Iff.rfl

/-- EVERY INDEX IS WRITTEN: `(p, g, r, l)` lies in the block of the point with row tile `p · 4 + r / 1024` and head
    group `g / 4`. -/
theorem covered (i : S4x16x4096x128.Idx) :
    ∃ t : Fin cfg2.N, (cfg2.win 3).flush t = true ∧ i ∈ ((cfg2.win 3).blk t).view.set := by
  have h0 : (i 0).val < 4 := (i 0).isLt
  have h1 : (i 1).val < 16 := (i 1).isLt
  have h2 : (i 2).val < 4096 := (i 2).isLt
  have h3 : (i 3).val < 128 := (i 3).isLt
  have hN : cfg2.N = 64 := N_2
  obtain ⟨t, ht⟩ : ∃ t : Fin cfg2.N, t.val = ((i 0).val * 4 + (i 2).val / 1024) * 4 + (i 1).val / 4 :=
    ⟨⟨((i 0).val * 4 + (i 2).val / 1024) * 4 + (i 1).val / 4, by rw [hN]; omega⟩, rfl⟩
  obtain ⟨-, -, -, -, -, -, f30, f31, f32, f33⟩ := placed t
  refine ⟨t, flush2_3 t, ?_⟩
  rw [mem_block]
  intro a
  match a with
  | ⟨0, _⟩ =>
    show win2_3.index t (0 : Fin 4) * 1 ≤ (i 0).val ∧ (i 0).val < win2_3.index t (0 : Fin 4) * 1 + 1
    rw [f30]; omega
  | ⟨1, _⟩ =>
    show win2_3.index t (1 : Fin 4) * 4 ≤ (i 1).val ∧ (i 1).val < win2_3.index t (1 : Fin 4) * 4 + 4
    rw [f31]; omega
  | ⟨2, _⟩ =>
    show win2_3.index t (2 : Fin 4) * 1024 ≤ (i 2).val ∧ (i 2).val < win2_3.index t (2 : Fin 4) * 1024 + 1024
    rw [f32]; omega
  | ⟨3, _⟩ =>
    show win2_3.index t (3 : Fin 4) * 128 ≤ (i 3).val ∧ (i 3).val < win2_3.index t (3 : Fin 4) * 128 + 128
    rw [f33]; omega

/-- THE OUTPUT ARRAY AFTER THE REGION: the section computed from rows of the three input arrays as entered. -/
theorem final (c : Dev nD) :
    (dat2 V c).arrAt 3 cfg2.N = rows (V c main_v0) (V c main_v10) (V c main_v12) :=
  (dat2 V c).arrAt_eq_of_cover 3 _ (fun t _ => written_eq V c t) covered

end Cert.KernelIdeal.Region2

end
-- ==== Proof.QkvKernel.lean ====
/-
  The kernel's three results as functions of its arguments.

  Each result buffer at the return is what its region left (the boundaries), each region leaves the section computed
  from rows of its three input arrays (the regions), those arrays are the flattened hidden states and the columns of
  the fused weight and bias from the section's offset on (the boundaries again; narrowing to bf16 is the identity on
  the extended reals), and a section from such rows is the fused form's section (`Qkv.rows_eq_heads`). So the run
  ends with the three results at `Qkv.heads 0`, `2048`, `4096` of the argument arrays.
-/
import proofs.«117544_j51977694216468_2_alg».proof.Proof.QkvRun
import proofs.«117544_j51977694216468_2_alg».proof.Proof.QkvBoundaries
import proofs.«117544_j51977694216468_2_alg».proof.Proof.QkvRegion0
import proofs.«117544_j51977694216468_2_alg».proof.Proof.QkvRegion1
import proofs.«117544_j51977694216468_2_alg».proof.Proof.QkvRegion2

set_option maxRecDepth 16384

noncomputable section

namespace Cert.KernelIdeal.Sections

open Cert.KernelIdeal Cert.KernelIdeal.Gen Idealize.ShloMosaic Idealize.ShloMosaic.TcCoe Idealize.SL.Sem Cert.Qkv

variable (m : (ℓ : Loc nD τ sig) → Buf (Elt Ideal) ℓ) (ρ : Dev nD → PrngReg)

/-- The query section at the return: region 0 left the section computed from rows of what it was handed, and what
    it was handed are the flattened hidden states and the fused weight's and bias's columns from 0 on. -/
theorem W6_query_eq (c : Dev nD) :
    W6 m ρ c (Proc.devRef .tc main_v5) = heads 0 (by omega) (m ((c : Thread nD τ).loc main_arg0))
      (m ((c : Thread nD τ).loc main_arg1)) (m ((c : Thread nD τ).loc main_arg2)) := by
  rw [Boundaries.W6_query, Region0.final (V1 m ρ) c, Boundaries.V1_rows, Boundaries.V1_weights, Boundaries.V1_biasrow]
  exact rows_eq_heads 0 (by omega) (m ((c : Thread nD τ).loc main_arg0)) (m ((c : Thread nD τ).loc main_arg1))
    (m ((c : Thread nD τ).loc main_arg2)) shapeCasts_S4x4096x2048_S16384x2048 slices_S2048x6144_S2048x2048_0_0 slices_S6144_S2048_0 shapeCasts_S2048_S1x2048

/-- The key section at the return: region 1 left the section computed from rows of what it was handed, and what
    it was handed are the flattened hidden states and the fused weight's and bias's columns from 2048 on. -/
theorem W6_key_eq (c : Dev nD) :
    W6 m ρ c (Proc.devRef .tc main_v9) = heads 2048 (by omega) (m ((c : Thread nD τ).loc main_arg0))
      (m ((c : Thread nD τ).loc main_arg1)) (m ((c : Thread nD τ).loc main_arg2)) := by
  rw [Boundaries.W6_key, Region1.final (V3 m ρ) c, Boundaries.V3_rows, Boundaries.V3_weights, Boundaries.V3_biasrow]
  exact rows_eq_heads 2048 (by omega) (m ((c : Thread nD τ).loc main_arg0)) (m ((c : Thread nD τ).loc main_arg1))
    (m ((c : Thread nD τ).loc main_arg2)) shapeCasts_S4x4096x2048_S16384x2048 slices_S2048x6144_S2048x2048_0_2048 slices_S6144_S2048_2048 shapeCasts_S2048_S1x2048

/-- The value section at the return: region 2 left the section computed from rows of what it was handed, and what
    it was handed are the flattened hidden states and the fused weight's and bias's columns from 4096 on. -/
theorem W6_value_eq (c : Dev nD) :
    W6 m ρ c (Proc.devRef .tc main_v13) = heads 4096 (by omega) (m ((c : Thread nD τ).loc main_arg0))
      (m ((c : Thread nD τ).loc main_arg1)) (m ((c : Thread nD τ).loc main_arg2)) := by
  rw [Boundaries.W6_value, Region2.final (V5 m ρ) c, Boundaries.V5_rows, Boundaries.V5_weights, Boundaries.V5_biasrow]
  exact rows_eq_heads 4096 (by omega) (m ((c : Thread nD τ).loc main_arg0)) (m ((c : Thread nD τ).loc main_arg1))
    (m ((c : Thread nD τ).loc main_arg2)) shapeCasts_S4x4096x2048_S16384x2048 slices_S2048x6144_S2048x2048_0_4096 slices_S6144_S2048_4096 shapeCasts_S2048_S1x2048

/-- THE KERNEL'S RUN: every weakly fair execution terminates without a fault, the three results are the query, key and
    value sections of the fused projection of the arguments, and the arguments are unchanged. -/
theorem run : θ_run defs (onTc (τ := τ) (main (F := Ideal))) ⟨m, fun _ => 0, ρ⟩ (fun r => ∀ c : Dev nD,
      r.2.mem ((c.tc : Thread nD τ).loc main_v5) = heads 0 (by omega) (m ((c : Thread nD τ).loc main_arg0))
        (m ((c : Thread nD τ).loc main_arg1)) (m ((c : Thread nD τ).loc main_arg2))
      ∧ r.2.mem ((c.tc : Thread nD τ).loc main_v9) = heads 2048 (by omega) (m ((c : Thread nD τ).loc main_arg0))
        (m ((c : Thread nD τ).loc main_arg1)) (m ((c : Thread nD τ).loc main_arg2))
      ∧ r.2.mem ((c.tc : Thread nD τ).loc main_v13) = heads 4096 (by omega) (m ((c : Thread nD τ).loc main_arg0))
        (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W6_query_eq m ρ c), (h c).2.1.trans (W6_key_eq m ρ c),
      (h c).2.2.1.trans (W6_value_eq m ρ c), (h c).2.2.2⟩)
    (Results.run_at m ρ)

end Cert.KernelIdeal.Sections

end
-- ==== Proof.QkvReference.lean ====
/-
  The reference, read at an index.

  The reference forms the fused product `y[p, r, c] = Σ_k x[p, r, k] · w[k, c]` over all 6144 columns, adds the bias
  along the columns, slices the three sections, reshapes each `[4, 4096, 2048]` to `[4, 4096, 16, 128]` and swaps the
  token and head axes. Entry `(p, g, r, l)` of a result is therefore entry `(p, r, g, l)` of the reshaped section, that is
  `y[p, r, off + g · 128 + l] + b[off + g · 128 + l]`: the fused form's section (`Qkv.heads`). Each operation is read at an
  index by the generated stage lemmas; what is done here is the arithmetic of the composed index.
-/
import proofs.«117544_j51977694216468_2_alg».proof.Proof.Gen.ReferenceIdeal.Read
import proofs.«117544_j51977694216468_2_alg».proof.Proof.QkvSpec

noncomputable section

open scoped BigOperators

namespace Cert.ReferenceIdeal.Sections

open Cert.ReferenceIdeal Cert.ReferenceIdeal.Gen Cert.ReferenceIdeal.Read Idealize.ShloMosaic Idealize.ShloMosaic.ValueIdx Cert.Qkv

/-- Result `main_v8` (the section at column 0): read back through the transpose, the reshape and the slice it is
    the fused product plus bias at column `0 + g · 128 + l`. -/
theorem val_main_v8_eq_heads (x0 : (⟨S4x4096x2048, .f32⟩ : BufTy).Contents (Elt Ideal)) (x1 : (⟨S2048x6144, .f32⟩ : BufTy).Contents (Elt Ideal))
    (x2 : (⟨S6144, .f32⟩ : BufTy).Contents (Elt Ideal)) :
    val_main_v8 (F := Ideal) x0 x1 x2 = heads 0 (by omega) x0 x1 x2 := by
  funext i
  obtain ⟨p, g, r, l, rfl⟩ : ∃ (p : Fin 4) (g : Fin 16) (r : Fin 4096) (l : Fin 128), i = ix4 p g r l :=
    ⟨i 0, i 1, i 2, i 3, eq_ix4 i⟩
  rw [val_main_v8_apply, val_main_v7_apply, val_main_v4_apply, val_main_v3_apply, val_main_v0_apply, val_main_v2_apply,
    val_main_v1_apply, heads_ix4]
  unfold entry
  have el : ∀ k : Fin 2048, lidx_main_v0 (idx_main_v4 (idx_main_v7 (idx_main_v8 (ix4 p g r l)))) k = ix3 p r k := fun k =>
    funext fun a => Fin.ext (by
      match a with
      | ⟨0, _⟩ => show (((p.val * 4096 + r.val) * 16 + g.val) * 128 + l.val) / 8388608 = p.val; omega
      | ⟨1, _⟩ => show (((p.val * 4096 + r.val) * 16 + g.val) * 128 + l.val) / 2048 % 4096 = r.val; omega
      | ⟨2, _⟩ => rfl)
  have er : ∀ k : Fin 2048, ridx_main_v0 (idx_main_v4 (idx_main_v7 (idx_main_v8 (ix4 p g r l)))) k = ix2 k (col 0 (by omega) g l) := fun k =>
    funext fun a => Fin.ext (by
      match a with
      | ⟨0, _⟩ => rfl
      | ⟨1, _⟩ => show (((p.val * 4096 + r.val) * 16 + g.val) * 128 + l.val) % 2048 = 0 + g.val * 128 + l.val; omega)
  have eb : idx_main_v1 (idx_main_v2 (idx_main_v4 (idx_main_v7 (idx_main_v8 (ix4 p g r l))))) = ix1 (col 0 (by omega) g l) :=
    funext fun a => Fin.ext (by
      match a with
      | ⟨0, _⟩ => show (((p.val * 4096 + r.val) * 16 + g.val) * 128 + l.val) % 2048 = 0 + g.val * 128 + l.val; omega)
  rw [eb]
  refine congrArg (· + x2 (ix1 (col 0 (by omega) g l))) (Finset.sum_congr rfl fun k _ => ?_)
  rw [el k, er k]

/-- Result `main_v10` (the section at column 2048): read back through the transpose, the reshape and the slice it is
    the fused product plus bias at column `2048 + g · 128 + l`. -/
theorem val_main_v10_eq_heads (x0 : (⟨S4x4096x2048, .f32⟩ : BufTy).Contents (Elt Ideal)) (x1 : (⟨S2048x6144, .f32⟩ : BufTy).Contents (Elt Ideal))
    (x2 : (⟨S6144, .f32⟩ : BufTy).Contents (Elt Ideal)) :
    val_main_v10 (F := Ideal) x0 x1 x2 = heads 2048 (by omega) x0 x1 x2 := by
  funext i
  obtain ⟨p, g, r, l, rfl⟩ : ∃ (p : Fin 4) (g : Fin 16) (r : Fin 4096) (l : Fin 128), i = ix4 p g r l :=
    ⟨i 0, i 1, i 2, i 3, eq_ix4 i⟩
  rw [val_main_v10_apply, val_main_v9_apply, val_main_v5_apply, val_main_v3_apply, val_main_v0_apply, val_main_v2_apply,
    val_main_v1_apply, heads_ix4]
  unfold entry
  have el : ∀ k : Fin 2048, lidx_main_v0 (idx_main_v5 (idx_main_v9 (idx_main_v10 (ix4 p g r l)))) k = ix3 p r k := fun k =>
    funext fun a => Fin.ext (by
      match a with
      | ⟨0, _⟩ => show (((p.val * 4096 + r.val) * 16 + g.val) * 128 + l.val) / 8388608 = p.val; omega
      | ⟨1, _⟩ => show (((p.val * 4096 + r.val) * 16 + g.val) * 128 + l.val) / 2048 % 4096 = r.val; omega
      | ⟨2, _⟩ => rfl)
  have er : ∀ k : Fin 2048, ridx_main_v0 (idx_main_v5 (idx_main_v9 (idx_main_v10 (ix4 p g r l)))) k = ix2 k (col 2048 (by omega) g l) := fun k =>
    funext fun a => Fin.ext (by
      match a with
      | ⟨0, _⟩ => rfl
      | ⟨1, _⟩ => show 2048 + (((p.val * 4096 + r.val) * 16 + g.val) * 128 + l.val) % 2048 = 2048 + g.val * 128 + l.val; omega)
  have eb : idx_main_v1 (idx_main_v2 (idx_main_v5 (idx_main_v9 (idx_main_v10 (ix4 p g r l))))) = ix1 (col 2048 (by omega) g l) :=
    funext fun a => Fin.ext (by
      match a with
      | ⟨0, _⟩ => show 2048 + (((p.val * 4096 + r.val) * 16 + g.val) * 128 + l.val) % 2048 = 2048 + g.val * 128 + l.val; omega)
  rw [eb]
  refine congrArg (· + x2 (ix1 (col 2048 (by omega) g l))) (Finset.sum_congr rfl fun k _ => ?_)
  rw [el k, er k]

/-- Result `main_v12` (the section at column 4096): read back through the transpose, the reshape and the slice it is
    the fused product plus bias at column `4096 + g · 128 + l`. -/
theorem val_main_v12_eq_heads (x0 : (⟨S4x4096x2048, .f32⟩ : BufTy).Contents (Elt Ideal)) (x1 : (⟨S2048x6144, .f32⟩ : BufTy).Contents (Elt Ideal))
    (x2 : (⟨S6144, .f32⟩ : BufTy).Contents (Elt Ideal)) :
    val_main_v12 (F := Ideal) x0 x1 x2 = heads 4096 (by omega) x0 x1 x2 := by
  funext i
  obtain ⟨p, g, r, l, rfl⟩ : ∃ (p : Fin 4) (g : Fin 16) (r : Fin 4096) (l : Fin 128), i = ix4 p g r l :=
    ⟨i 0, i 1, i 2, i 3, eq_ix4 i⟩
  rw [val_main_v12_apply, val_main_v11_apply, val_main_v6_apply, val_main_v3_apply, val_main_v0_apply, val_main_v2_apply,
    val_main_v1_apply, heads_ix4]
  unfold entry
  have el : ∀ k : Fin 2048, lidx_main_v0 (idx_main_v6 (idx_main_v11 (idx_main_v12 (ix4 p g r l)))) k = ix3 p r k := fun k =>
    funext fun a => Fin.ext (by
      match a with
      | ⟨0, _⟩ => show (((p.val * 4096 + r.val) * 16 + g.val) * 128 + l.val) / 8388608 = p.val; omega
      | ⟨1, _⟩ => show (((p.val * 4096 + r.val) * 16 + g.val) * 128 + l.val) / 2048 % 4096 = r.val; omega
      | ⟨2, _⟩ => rfl)
  have er : ∀ k : Fin 2048, ridx_main_v0 (idx_main_v6 (idx_main_v11 (idx_main_v12 (ix4 p g r l)))) k = ix2 k (col 4096 (by omega) g l) := fun k =>
    funext fun a => Fin.ext (by
      match a with
      | ⟨0, _⟩ => rfl
      | ⟨1, _⟩ => show 4096 + (((p.val * 4096 + r.val) * 16 + g.val) * 128 + l.val) % 2048 = 4096 + g.val * 128 + l.val; omega)
  have eb : idx_main_v1 (idx_main_v2 (idx_main_v6 (idx_main_v11 (idx_main_v12 (ix4 p g r l))))) = ix1 (col 4096 (by omega) g l) :=
    funext fun a => Fin.ext (by
      match a with
      | ⟨0, _⟩ => show 4096 + (((p.val * 4096 + r.val) * 16 + g.val) * 128 + l.val) % 2048 = 4096 + g.val * 128 + l.val; omega)
  rw [eb]
  refine congrArg (· + x2 (ix1 (col 4096 (by omega) g l))) (Finset.sum_congr rfl fun k _ => ?_)
  rw [el k, er k]

end Cert.ReferenceIdeal.Sections

end
-- ==== Proof.lean ====
/-
  The fused QKV projection: a Pallas kernel per section against one einsum.

  The kernel flattens the hidden states `x : [4, 4096, 2048]` to rows, narrows the fused weight `w : [2048, 6144]` to
  bf16 and, once per section (query, key, value: columns 0, 2048 and 4096 on), runs a grid of 16 row tiles × 4 head
  groups; a grid point multiplies a `[1024, 2048]` row tile by a `[2048, 512]` weight tile, adds the bias tile, and
  writes the result head-major as a `[1, 4, 1024, 128]` block of `[4, 16, 4096, 128]`. The reference computes
  `x · w + b` whole, slices the three sections, and reshapes and transposes each to `[4, 16, 4096, 128]`.

  On the extended reals (a change of float format is the identity, a product into a zero accumulator is the plain
  sum) both give, for the section at column `off`, the array whose entry `(p, g, r, l)` is
  `Σ_k x[p, r, k] · w[k, off + g · 128 + l] + b[off + g · 128 + l]` (`Qkv.heads`): the kernel because the 64 blocks of
  a region tile its output and each is that array's block (QkvTile, QkvBlock, QkvRegion0–2, QkvBoundaries, QkvKernel),
  the reference by reading its operations back at an index (QkvReference). The sums have the same terms in the same
  order, so no law of arithmetic and no finiteness of the inputs is used. The ideal pass rewrote nothing, so
  `preserves` is `True`; the three frames are the generated ones.
-/
import proofs.«117544_j51977694216468_2_alg».proof.Defs
import proofs.«117544_j51977694216468_2_alg».proof.Proof.Gen.Kernel
import proofs.«117544_j51977694216468_2_alg».proof.Proof.Gen.Kernel.Frame
import proofs.«117544_j51977694216468_2_alg».proof.Proof.Gen.KernelIdeal
import proofs.«117544_j51977694216468_2_alg».proof.Proof.Gen.KernelIdeal.Frame
import proofs.«117544_j51977694216468_2_alg».proof.Proof.Gen.ReferenceIdeal
import proofs.«117544_j51977694216468_2_alg».proof.Proof.Gen.ReferenceIdeal.Run
import proofs.«117544_j51977694216468_2_alg».proof.Proof.Gen.ReferenceIdeal.Read
import proofs.«117544_j51977694216468_2_alg».proof.Proof.Gen.Pre_finite_inputs
import proofs.«117544_j51977694216468_2_alg».proof.Proof.QkvKernel
import proofs.«117544_j51977694216468_2_alg».proof.Proof.QkvReference
import Idealize.ShloMosaic.Adequacy
import Idealize.ShloMosaic.Init

noncomputable section

namespace Cert.Proof

open Idealize.ShloMosaic Idealize.SL.Sem Cert.Qkv

/-- The three frames: the kernel's two are the generated launch over its six segments; the reference has no kernel,
    and its frame is its run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text read on the extended reals: no rewrite to account for. -/
theorem preserves : Cert.preserves_Kernel_KernelIdeal := trivial

/-- Both programs end with the query, key and value sections of the fused projection of the arguments. -/
theorem algebraic : Cert.algebraic_KernelIdeal_ReferenceIdeal := by
  intro m ρ m' ρ' _ hagree
  refine ⟨_, _, _, Cert.KernelIdeal.Sections.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v8_eq, Cert.ReferenceIdeal.Sections.val_main_v8_eq_heads,
      (hagree c).1, (hagree c).2.1, (hagree c).2.2]
  · rw [(h c).2.1, Cert.ReferenceIdeal.Read.val_main_v10_eq, Cert.ReferenceIdeal.Sections.val_main_v10_eq_heads,
      (hagree c).1, (hagree c).2.1, (hagree c).2.2]
  · rw [(h c).2.2.1, Cert.ReferenceIdeal.Read.val_main_v12_eq, Cert.ReferenceIdeal.Sections.val_main_v12_eq_heads,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
